-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S4096x4096 32) (main_arg2 : FVec F S4096 .f32) (main_arg3 : IVec S4096 32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1024x512 : Shape := ⟨2, ![1024, 512]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S2x2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .i32⟩
  | .local _ .vmem, ⟨3, _⟩ => ⟨S512x1024, .i32⟩
  | .local _ .vmem, ⟨4, _⟩ => ⟨S1024, .f32⟩
  | .local _ .vmem, ⟨5, _⟩ => ⟨S1024, .f32⟩
  | .local _ .vmem, ⟨6, _⟩ => ⟨S1024, .i32⟩
  | .local _ .vmem, ⟨7, _⟩ => ⟨S1024, .i32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x2048x4096_S4096x4096 : S2x2048x4096.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  inb_S512x1024_S512x1024_0_0 : ∀ a, (![0, 0] : Fin 2 → Nat) a + S512x1024.size a ≤ S512x1024.size a
  h_S512x1024 : 0 < S512x1024.numel
  shapeCasts_S1024_S1x1024 : S1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x1024_S1024x1024 : S1x1024.Broadcasts S1024x1024
  shapeCasts_S4096x4096_S2x2048x4096 : S4096x4096.ShapeCasts S2x2048x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .i32 = 32 ∨ (Rect.block (s := S4096) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S4096, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S2x2048x4096, .f32⟩
  | .hbm, ⟨14, _⟩ => ⟨S1x1x4096, .f32⟩
  | .hbm, ⟨15, _⟩ => ⟨S2x2048x4096, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_0_01_1_n_n_wf : DotDims.WF S2x2048x4096 S4096x4096 S2x2048x4096 [2] [0] [0, 1] [1] [] []

variable [Facts₀]

def dot_S2x2048x4096_S4096x4096_S2x2048x4096_2_0_01_1_n_n : DotDims S2x2048x4096 S4096x4096 S2x2048x4096 where
  lhsContracting := [2]
  rhsContracting := [0]
  lhsNonContracting := [0, 1]
  rhsNonContracting := [1]
  lhsBatch := []
  rhsBatch := []
  wf := dot_S2x2048x4096_S4096x4096_S2x2048x4096_2_0_01_1_n_n_wf

class Facts : Prop extends Facts₀ where

variable [Facts]
-- ==== Proof.Spec.lean ====
/-
  The function both programs compute: a linear layer whose weight matrix is dequantised on the fly.
  For a row `r` of the flattened activations and an output channel `n`,
      out[r, n] = Σ_k x[r, k] · ((q[k, n] − zp[n]) · scale[n]) + bias[n],
  the integer codes `q` and zero points `zp` read as reals, everything else an extended real.
  The kernel walks the sum over `k` in eight blocks of 512 terms, adding each block to a running total; the
  reference takes all 4096 terms at once. What joins the two is only that the first `(b+1)·512` terms of a sum are
  its first `b·512` terms plus the next 512: addition of extended reals is commutative and associative, so no
  finiteness is needed.
-/
import Idealize.ShloMosaic.PureOps.Ideal
import Idealize.ShloMosaic.Lib.ValueIdx

noncomputable section

namespace Cert.Spec

open Idealize.ShloMosaic Idealize.ShloMosaic.ValueIdx

/-- The activations, `[2, 2048, 4096]`. -/
abbrev Acts : Shape := ⟨3, ![2, 2048, 4096]⟩
/-- A `[4096, 4096]` matrix: the flattened activations, the codes, the flattened result. -/
abbrev Mat : Shape := ⟨2, ![4096, 4096]⟩
/-- One number per output channel. -/
abbrev Chan : Shape := ⟨1, ![4096]⟩

/-- The dequantised weight at `(k, n)`: `(q[k, n] − zp[n]) · scale[n]`. -/
def weight (q : Mat.Idx → BitVec 32) (zp : Chan.Idx → BitVec 32) (sc : Chan.Idx → EReal) (k n : Fin 4096) : EReal :=
  (FloatOps.sitofp (F := Ideal) FTy.f32 (q (ix2 k n)) - FloatOps.sitofp (F := Ideal) FTy.f32 (zp (ix1 n))) * sc (ix1 n)

/-- The layer on flattened activations `[4096, 4096]`. -/
def linear2 (x : Mat.Idx → EReal) (q : Mat.Idx → BitVec 32) (zp : Chan.Idx → BitVec 32) (sc bias : Chan.Idx → EReal) :
    Mat.Idx → EReal := fun j =>
  (∑ k : Fin 4096, x (ix2 (j 0) k) * weight q zp sc k (j 1)) + bias (ix1 (j 1))

/-- The layer on the activations as given, `[2, 2048, 4096]`. -/
def linear3 (x : Acts.Idx → EReal) (q : Mat.Idx → BitVec 32) (zp : Chan.Idx → BitVec 32) (sc bias : Chan.Idx → EReal) :
    Acts.Idx → EReal := fun i =>
  (∑ k : Fin 4096, x (ix3 (i 0) (i 1) k) * weight q zp sc k (i 2)) + bias (ix1 (i 2))

/-! ## A sum of 4096 terms taken 512 at a time -/

section sums

variable {M : Type} [AddCommMonoid M]

/-- The terms as a sequence on all naturals, zero from 4096 on. -/
def term (f : Fin 4096 → M) (k : ℕ) : M := if h : k < 4096 then f ⟨k, h⟩ else 0

theorem term_of_lt (f : Fin 4096 → M) {k : ℕ} (h : k < 4096) : term f k = f ⟨k, h⟩ := dif_pos h

/-- The sum of the first `n` terms. -/
def head (f : Fin 4096 → M) (n : ℕ) : M := ∑ k ∈ Finset.range n, term f k

theorem head_zero (f : Fin 4096 → M) : head f 0 = 0 := Finset.sum_range_zero _

/-- One more block of 512 terms. -/
theorem head_block (f : Fin 4096 → M) (b : ℕ) :
    head f ((b + 1) * 512) = head f (b * 512) + ∑ kk : Fin 512, term f (b * 512 + kk.val) := by
  unfold head
  rw [show (b + 1) * 512 = b * 512 + 512 by ring, Finset.sum_range_add, Finset.sum_range (fun x => term f (b * 512 + x))]

/-- All 4096 terms. -/
theorem head_all (f : Fin 4096 → M) : head f 4096 = ∑ k : Fin 4096, f k := by
  unfold head
  rw [Finset.sum_range]
  exact Finset.sum_congr rfl fun k _ => term_of_lt f k.isLt

end sums

end Cert.Spec

end
-- ==== Proof.RefSpec.lean ====
/-
  The reference program's result is the layer of the specification: read one operation at a time, its last value at
  an index `(b, s, n)` is the sum over `k` of `x[b, s, k]` times the dequantised weight `(q[k, n] − zp[n]) · scale[n]`,
  plus `bias[n]` — the two broadcasts of a per-channel vector over the rows of the weight matrix and over the
  activations' leading axes only repeat it.
-/
import proofs.«176019_j33182917329331_1_alg».proof.Proof.Gen.ReferenceIdeal.Read
import proofs.«176019_j33182917329331_1_alg».proof.Proof.Spec

noncomputable section

namespace Cert.RefSpec

open Idealize.ShloMosaic Idealize.ShloMosaic.ValueIdx Cert.ReferenceIdeal Cert.ReferenceIdeal.Read

/-- The reference's last stage is the specification's layer of the same five arrays. -/
theorem reference_eq (x0 : (⟨S2x2048x4096, .f32⟩ : BufTy).Contents (Elt Ideal)) (x1 : (⟨S4096x4096, .i32⟩ : BufTy).Contents (Elt Ideal))
    (x2 : (⟨S4096, .f32⟩ : BufTy).Contents (Elt Ideal)) (x3 : (⟨S4096, .i32⟩ : BufTy).Contents (Elt Ideal))
    (x4 : (⟨S4096, .f32⟩ : BufTy).Contents (Elt Ideal)) :
    val_main_v11 (F := Ideal) x0 x1 x2 x3 x4 = Cert.Spec.linear3 x0 x1 x3 x2 x4 := by
  funext i
  obtain ⟨b, s, n, rfl⟩ : ∃ (b : Fin 2) (s : Fin 2048) (n : Fin 4096), i = ix3 b s n := ⟨i 0, i 1, i 2, eq_ix3 i⟩
  -- the composed index functions of the generated reading, in coordinates
  have el : ∀ k : Fin 4096, lidx_main_v8 (ix3 b s n) k = ix3 b s k := fun k =>
    funext fun a => Fin.ext (by match a with | ⟨0, _⟩ => rfl | ⟨1, _⟩ => rfl | ⟨2, _⟩ => rfl)
  have er : ∀ k : Fin 4096, ridx_main_v8 (ix3 b s n) k = ix2 k n := fun k =>
    funext fun a => Fin.ext (by match a with | ⟨0, _⟩ => rfl | ⟨1, _⟩ => rfl)
  have ez : ∀ k : Fin 4096, idx_main_v2 (idx_main_v3 (ix2 k n)) = ix1 n := fun k =>
    funext fun a => Fin.ext (by match a with | ⟨0, _⟩ => rfl)
  have es : ∀ k : Fin 4096, idx_main_v5 (idx_main_v6 (ix2 k n)) = ix1 n := fun k =>
    funext fun a => Fin.ext (by match a with | ⟨0, _⟩ => rfl)
  have eb : idx_main_v9 (idx_main_v10 (ix3 b s n)) = ix1 n :=
    funext fun a => Fin.ext (by match a with | ⟨0, _⟩ => rfl)
  unfold Cert.Spec.linear3
  rw [val_main_v11_apply, val_main_v8_apply, val_main_v10_apply, val_main_v9_apply, eb]
  refine congrArg (· + x4 (ix1 n)) (Finset.sum_congr rfl fun k _ => ?_)
  rw [val_main_v7_apply, val_main_v4_apply, val_main_v1_apply, val_main_v3_apply, val_main_v2_apply, val_main_v0_apply,
    val_main_v6_apply, val_main_v5_apply, el, er, ez, es]
  rfl

end Cert.RefSpec

end
-- ==== Proof.Claims.lean ====
/-
  The five claims. The three frames are the generated ones (the reference's being its run with the result dropped);
  nothing was rewritten when the kernel was idealised, so that claim is trivial. For the last one, both programs end
  with the same array: the kernel's result is the layer of the specification applied to its argument arrays (the
  hypothesis `hrun`, proved beside the kernel's value), the reference's last stage is the same layer of its own, and
  the two sets of arguments agree.
-/
import proofs.«176019_j33182917329331_1_alg».proof.Defs
import proofs.«176019_j33182917329331_1_alg».proof.Proof.Gen.Kernel.Frame
import proofs.«176019_j33182917329331_1_alg».proof.Proof.Gen.KernelIdeal.Frame
import proofs.«176019_j33182917329331_1_alg».proof.Proof.Gen.ReferenceIdeal.Run
import proofs.«176019_j33182917329331_1_alg».proof.Proof.Gen.ReferenceIdeal.Read
import proofs.«176019_j33182917329331_1_alg».proof.Proof.Gen.Pre_finite_inputs
import proofs.«176019_j33182917329331_1_alg».proof.Proof.RefSpec
import proofs.«176019_j33182917329331_1_alg».proof.Proof.Spec

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What the kernel's run is shown to end with: the result at the specification's layer of the argument arrays, the
    arguments unchanged. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
            = Cert.Spec.linear3 (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

theorem algebraic (hrun : KernelRuns) : Cert.algebraic_KernelIdeal_ReferenceIdeal := by
  intro m ρ m' ρ' _ hagree
  refine ⟨fun c => Cert.Spec.linear3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)), hrun m ρ, ?_⟩
  refine (θ_run Cert.ReferenceIdeal.defs _ _).mono (fun _ h c => ⟨?_, (h c).2⟩)
    (Cert.ReferenceIdeal.Value.run (F := Ideal) m' ρ')
  refine (h c).1.trans ?_
  refine (Cert.ReferenceIdeal.Read.val_main_v11_eq _ _ _ _ _).trans ?_
  refine (Cert.RefSpec.reference_eq _ _ _ _ _).trans ?_
  rw [(hagree c).1, (hagree c).2.1, (hagree c).2.2.1, (hagree c).2.2.2.1, (hagree c).2.2.2.2]

end Cert.Proof.Claims

end
-- ==== Proof.Pieces.lean ====
/-
  What one grid point's body leaves behind, as values. The body stores whole 1024 × 1024 tiles only: into the scratch
  tile that carries the running total from one block of `k` to the next, and, at the last block, into the output
  tile. So what each case of the body leaves in a tile is the value of its last store into it, with every load
  replaced by what the loaded buffer holds — the point's input blocks, the running total the previous point left,
  or a value the body itself stored a moment earlier.
-/
import proofs.«176019_j33182917329331_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]
variable (c : Dev nD) (i : grid0.Coords)
  (arg3 : Memref sig .tc .vmem S1024x512 .bf16) (harg3 : arg3.IsWhole)
  (arg4 : Memref sig .tc .vmem S512x1024 .i32) (harg4 : arg4.IsWhole)
  (arg5 : Memref sig .tc .vmem S1024 .f32) (harg5 : arg5.IsWhole)
  (arg6 : Memref sig .tc .vmem S1024 .i32) (harg6 : arg6.IsWhole)
  (arg7 : Memref sig .tc .vmem S1024 .f32) (harg7 : arg7.IsWhole)
  (arg8 : Memref sig .tc .vmem S1024x1024 .f32) (harg8 : arg8.IsWhole)
  (arg9 : Memref sig .tc .vmem S1024x1024 .f32) (harg9 : arg9.IsWhole)
  (x0 : Vec F S1024x512 .bf16) (x1 : Vec F S512x1024 .i32) (x2 : Vec F S1024 .f32) (x3 : Vec F S1024 .i32)
  (x4 : Vec F S1024 .f32) (xs0 : Vec F S1024x1024 .f32)

theorem hz : (![0, 0] : Fin 2 → Nat) = fun _ => 0 := funext fun a => by fin_cases a <;> rfl

theorem hz1 : (![0] : Fin 1 → Nat) = fun _ => 0 := funext fun a => by fin_cases a; rfl

/-- At a point that neither starts nor ends a row of blocks, the scratch tile holding `xs0` is left at the
    accumulation step's value of the point's input blocks: the body's one store into it covers it. -/
theorem sout_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 x4 xs0
      = k0_pay2 x3 x2 x1 xs0 x0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread, harg7.read_unread, harg9.read_unread,
    View.ld_unit_zero (S := S1024x1024) hz, View.ld_unit_zero (S := S1024x512) hz, View.ld_unit_zero (S := S512x1024) hz,
    View.ld_unit_zero (S := S1024) hz1]

/-- At the last point of a row of blocks the scratch tile is left at the same accumulation step's value. -/
theorem sout_C (hc0 : ¬cond0_0 i) (hc1 : cond0_1 i) :
    sout0_C_0 c i arg3 harg3 arg4 harg4 arg5 harg5 arg6 harg6 arg7 harg7 arg8 harg8 arg9 harg9 hc0 hc1 x0 x1 x2 x3 x4 xs0
      = k0_pay2 x3 x2 x1 xs0 x0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x1024) hz, View.ld_unit_zero (S := S1024x512) hz, View.ld_unit_zero (S := S512x1024) hz,
    View.ld_unit_zero (S := S1024) hz1]

/-- and the output tile receives that value read back, plus the bias: the last step's value. -/
theorem out_C (hc0 : ¬cond0_0 i) (hc1 : cond0_1 i) :
    out0_C_5 c i arg3 harg3 arg4 harg4 arg5 harg5 arg6 harg6 arg7 harg7 arg8 harg8 arg9 harg9 hc0 hc1 x0 x1 x2 x3 x4 xs0
      = k0_pay3 (k0_pay2 x3 x2 x1 xs0 x0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg9.read_unread,
    View.ld_unit_zero (S := S1024x1024) hz, View.ld_unit_zero (S := S1024x512) hz, View.ld_unit_zero (S := S512x1024) hz,
    View.ld_unit_zero (S := S1024) hz1]

/-- At the first point of a row of blocks the scratch tile is reset, read back, and left at the accumulation step's
    value over the reset's value: the later of the body's two covering stores is the one that stays. -/
theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 x4
      = k0_pay2 x3 x2 x1 (k0_pay1 (F := F)) x0 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x1024) hz, View.ld_unit_zero (S := S1024x512) hz, View.ld_unit_zero (S := S512x1024) hz,
    View.ld_unit_zero (S := S1024) hz1]

end Cert.KernelIdeal.Pieces

end
-- ==== Proof.Payload.lean ====
/-
  The kernel body's three stored values, read at an entry `(p, q)` of the 1024 × 1024 tile, over the extended reals.
  The reset stores zero. The accumulation stores the running total plus one block's partial product: the sum over the
  block's 512 values of `k` of the activation `x[p, k]` times the dequantised weight `(q[k, q] − zp[q]) · scale[q]`
  (narrowing a float to a shorter format changes nothing here, and a matrix product into a zero accumulator is the
  plain sum). The last step stores the running total plus the channel's bias.
-/
import proofs.«176019_j33182917329331_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The matrix product's operand indices

The product contracts the left operand's second axis with the right operand's first: at the result's entry `(p, q)`
and a value `kk` of the contracted axis it reads the left operand at `(p, kk)` and the right one at `(kk, q)`. -/

/-- The left operand is read in the result's row. -/
theorem lhs_row (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl

/-- The left operand's column is the contracted coordinate. -/
theorem lhs_col (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c

/-- The right operand's row is the contracted coordinate. -/
theorem rhs_row (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c

/-- The right operand is read in the result's column. -/
theorem rhs_col (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ## The three stored values -/

/-- The reset's value is zero everywhere. -/
theorem pay1_apply (p q : Fin 1024) : k0_pay1 (F := Ideal) (ix2 p q) = 0 := by
  unfold k0_pay1
  rw [shapeCast_self, broadcast_apply]
  exact Ideal.ofBits_zero_f32

/-- The accumulation's value: the running total plus the block's partial product. -/
theorem pay2_apply (zp : Vec Ideal S1024 .i32) (sc : Vec Ideal S1024 .f32) (codes : Vec Ideal S512x1024 .i32)
    (acc : Vec Ideal S1024x1024 .f32) (x : Vec Ideal S1024x512 .bf16) (p q : Fin 1024) :
    k0_pay2 (F := Ideal) zp sc codes acc x (ix2 p q)
      = acc (ix2 p q) + ∑ kk : Fin 512, x (ix2 p kk)
          * ((FloatOps.sitofp (F := Ideal) FTy.f32 (codes (ix2 kk q)) - FloatOps.sitofp (F := Ideal) FTy.f32 (zp (ix1 q))) * sc (ix1 q)) := by
  unfold k0_pay2
  rw [shapeCast_self, addf_apply]
  refine congrArg (acc (ix2 p q) + ·) ?_
  refine (Ideal.matmul_constant_zero_apply dot_S1024x512_S512x1024_S1024x1024_1_0_0_1_n_n none _ _ (ix2 p q)).trans ?_
  rw [← Equiv.sum_comp (contrEquiv1 dot_S1024x512_S512x1024_S1024x1024_1_0_0_1_n_n 512 rfl rfl).symm]
  refine Finset.sum_congr rfl fun kk _ => ?_
  have hk := contrEquiv1_symm_val dot_S1024x512_S512x1024_S1024x1024_1_0_0_1_n_n 512 rfl rfl kk
  have el : dot_S1024x512_S512x1024_S1024x1024_1_0_0_1_n_n.lhsIdx (ix2 p q) ((contrEquiv1 dot_S1024x512_S512x1024_S1024x1024_1_0_0_1_n_n 512 rfl rfl).symm kk) = ix2 p kk :=
    funext fun a => Fin.ext (by
      match a with
      | ⟨0, _⟩ => exact lhs_row _ _
      | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm kk) = ix2 kk q :=
    funext fun a => Fin.ext (by
      match a with
      | ⟨0, _⟩ => exact (rhs_row _ _).trans hk
      | ⟨1, _⟩ => exact rhs_col _ _)
  rw [el, er, shapeCast_self, truncf_apply, mulf_apply, subf_apply, sitofp_apply, broadcastTo_1b_ab_apply,
    shapeCast_a_1a_apply, sitofp_apply, broadcastTo_1b_ab_apply, shapeCast_a_1a_apply]

/-- The last step's value: the running total plus the channel's bias. -/
theorem pay3_apply (acc : Vec Ideal S1024x1024 .f32) (bias : Vec Ideal S1024 .f32) (p q : Fin 1024) :
    k0_pay3 (F := Ideal) acc bias (ix2 p q) = acc (ix2 p q) + bias (ix1 q) := by
  unfold k0_pay3
  rw [addf_apply, broadcastTo_1b_ab_apply, shapeCast_a_1a_apply]

end Cert.KernelIdeal.Payload

end
-- ==== Proof.Blocks.lean ====
/-
  Where a grid point's blocks sit in their arrays. The grid is 4 × 4 × 8, walked with the last axis fastest, so point
  `t` works on block row `t / 32` of the activations, block column `t / 8 % 4` of the weights and channels, and block
  `t % 8` of the contracted axis. Entry `(p, kk)` of the activation block is entry `(1024·(t/32) + p, 512·(t%8) + kk)`
  of the flattened activations; entry `(kk, q)` of the code block is entry `(512·(t%8) + kk, 1024·(t/8%4) + q)` of the
  codes; entry `q` of a per-channel block is entry `1024·(t/8%4) + q` of its vector.
-/
import proofs.«176019_j33182917329331_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- Each window's index map at point `t`, in closed form (decided over the 128 points). -/
theorem idx_facts : ∀ t : Fin cfg0.N,
    win0_0.index t 0 = t.val / 32 ∧ win0_0.index t 1 = t.val % 8
    ∧ win0_1.index t 0 = t.val % 8 ∧ win0_1.index t 1 = t.val / 8 % 4
    ∧ win0_2.index t 0 = t.val / 8 % 4 ∧ win0_3.index t 0 = t.val / 8 % 4 ∧ win0_4.index t 0 = t.val / 8 % 4
    ∧ win0_5.index t 0 = t.val / 32 ∧ win0_5.index t 1 = t.val / 8 % 4 :=
  (by decide +kernel : ∀ t : Fin grid0.N,
    win0_0.index t 0 = t.val / 32 ∧ win0_0.index t 1 = t.val % 8
    ∧ win0_1.index t 0 = t.val % 8 ∧ win0_1.index t 1 = t.val / 8 % 4
    ∧ win0_2.index t 0 = t.val / 8 % 4 ∧ win0_3.index t 0 = t.val / 8 % 4 ∧ win0_4.index t 0 = t.val / 8 % 4
    ∧ win0_5.index t 0 = t.val / 32 ∧ win0_5.index t 1 = t.val / 8 % 4)

/-- The five input blocks at point `t`, with their shapes: activations, codes, scales, zero points, biases. -/
abbrev actBlock (c : Dev nD) (t : Fin cfg0.N) : Vec F S1024x512 .bf16 := iblk m c 0 t
abbrev codeBlock (c : Dev nD) (t : Fin cfg0.N) : Vec F S512x1024 .i32 := iblk m c 1 t
abbrev scaleBlock (c : Dev nD) (t : Fin cfg0.N) : Vec F S1024 .f32 := iblk m c 2 t
abbrev zeroBlock (c : Dev nD) (t : Fin cfg0.N) : Vec F S1024 .i32 := iblk m c 3 t
abbrev biasBlock (c : Dev nD) (t : Fin cfg0.N) : Vec F S1024 .f32 := iblk m c 4 t

/-- The activation block at point `t`, read at `(p, kk)`. -/
theorem iblk0_apply (c : Dev nD) (t : Fin cfg0.N) (p : Fin 1024) (kk : Fin 512) (r k : Fin 4096)
    (hr : r.val = t.val / 32 * 1024 + p.val) (hk : k.val = t.val % 8 * 512 + kk.val) :
    actBlock m c t (ix2 p kk) = (V m c main_v1 : Vec F S4096x4096 .bf16) (ix2 r k) := by
  unfold actBlock iblk
  rw [View.read_apply]
  show (V m c main_v1 : Vec F S4096x4096 .bf16) _ = _
  refine congrArg _ (funext fun a => Fin.ext ?_)
  obtain ⟨h00, h01, -⟩ := idx_facts t
  match a with
  | ⟨0, _⟩ => show win0_0.index t 0 * 1024 + 1 * p.val = r.val; rw [h00, hr]; omega
  | ⟨1, _⟩ => show win0_0.index t 1 * 512 + 1 * kk.val = k.val; rw [h01, hk]; omega

/-- The code block at point `t`, read at `(kk, q)`. -/
theorem iblk1_apply (c : Dev nD) (t : Fin cfg0.N) (kk : Fin 512) (q : Fin 1024) (k n : Fin 4096)
    (hk : k.val = t.val % 8 * 512 + kk.val) (hn : n.val = t.val / 8 % 4 * 1024 + q.val) :
    codeBlock m c t (ix2 kk q) = (V m c main_arg1 : Vec F S4096x4096 .i32) (ix2 k n) := by
  unfold codeBlock iblk
  rw [View.read_apply]
  show (V m c main_arg1 : Vec F S4096x4096 .i32) _ = _
  refine congrArg _ (funext fun a => Fin.ext ?_)
  obtain ⟨-, -, h10, h11, -⟩ := idx_facts t
  match a with
  | ⟨0, _⟩ => show win0_1.index t 0 * 512 + 1 * kk.val = k.val; rw [h10, hk]; omega
  | ⟨1, _⟩ => show win0_1.index t 1 * 1024 + 1 * q.val = n.val; rw [h11, hn]; omega

/-- The scale block at point `t`, read at `q`. -/
theorem iblk2_apply (c : Dev nD) (t : Fin cfg0.N) (q : Fin 1024) (n : Fin 4096)
    (hn : n.val = t.val / 8 % 4 * 1024 + q.val) :
    scaleBlock m c t (ix1 q) = (V m c main_arg2 : Vec F S4096 .f32) (ix1 n) := by
  unfold scaleBlock iblk
  rw [View.read_apply]
  show (V m c main_arg2 : Vec F S4096 .f32) _ = _
  refine congrArg _ (funext fun a => Fin.ext ?_)
  obtain ⟨-, -, -, -, h2, -⟩ := idx_facts t
  match a with
  | ⟨0, _⟩ => show win0_2.index t 0 * 1024 + 1 * q.val = n.val; rw [h2, hn]; omega

/-- The zero-point block at point `t`, read at `q`. -/
theorem iblk3_apply (c : Dev nD) (t : Fin cfg0.N) (q : Fin 1024) (n : Fin 4096)
    (hn : n.val = t.val / 8 % 4 * 1024 + q.val) :
    zeroBlock m c t (ix1 q) = (V m c main_arg3 : Vec F S4096 .i32) (ix1 n) := by
  unfold zeroBlock iblk
  rw [View.read_apply]
  show (V m c main_arg3 : Vec F S4096 .i32) _ = _
  refine congrArg _ (funext fun a => Fin.ext ?_)
  obtain ⟨-, -, -, -, -, h3, -⟩ := idx_facts t
  match a with
  | ⟨0, _⟩ => show win0_3.index t 0 * 1024 + 1 * q.val = n.val; rw [h3, hn]; omega

/-- The bias block at point `t`, read at `q`. -/
theorem iblk4_apply (c : Dev nD) (t : Fin cfg0.N) (q : Fin 1024) (n : Fin 4096)
    (hn : n.val = t.val / 8 % 4 * 1024 + q.val) :
    biasBlock m c t (ix1 q) = (V m c main_arg4 : Vec F S4096 .f32) (ix1 n) := by
  unfold biasBlock iblk
  rw [View.read_apply]
  show (V m c main_arg4 : Vec F S4096 .f32) _ = _
  refine congrArg _ (funext fun a => Fin.ext ?_)
  obtain ⟨-, -, -, -, -, -, h4, -⟩ := idx_facts t
  match a with
  | ⟨0, _⟩ => show win0_4.index t 0 * 1024 + 1 * q.val = n.val; rw [h4, hn]; omega

end Cert.KernelIdeal.Blocks

end
-- ==== Proof.Accum.lean ====
/-
  The running total, point by point. The grid walks, for each 1024 × 1024 tile of the result, the eight blocks of the
  contracted axis in order; the scratch tile is reset at the first and carries the running total to the last. After
  the point working on block `b`, its entry `(p, q)` holds the first `(b + 1)·512` terms of the sum that defines
  entry `(r, n)` of the layer — `r` and `n` the tile's row and column offsets plus `p` and `q` — by induction on
  the point: the reset contributes nothing, and each point adds its block of 512 terms to what the point before left.
  At the last block the total is complete, and the output tile receives it with the channel's bias added.
-/
import proofs.«176019_j33182917329331_1_alg».proof.Proof.Pieces
import proofs.«176019_j33182917329331_1_alg».proof.Proof.Payload
import proofs.«176019_j33182917329331_1_alg».proof.Proof.Blocks
import proofs.«176019_j33182917329331_1_alg».proof.Proof.Spec

noncomputable section

namespace Cert.KernelIdeal.Accum

open Idealize.ShloMosaic Idealize.ShloMosaic.TcCoe Idealize.ShloMosaic.ValueIdx Idealize.SL.Sem Cert.KernelIdeal Cert.KernelIdeal.Gen
open Cert.Spec

variable (m : (ℓ : Loc nD τ sig) → Buf (Elt Ideal) ℓ)

/-- The five arrays as the kernel call finds them: the flattened activations, the codes, the scales, the zero points,
    the biases. -/
abbrev acts (c : Dev nD) : Mat.Idx → EReal := (V m c main_v1 : Vec Ideal S4096x4096 .bf16)
abbrev codes (c : Dev nD) : Mat.Idx → BitVec 32 := (V m c main_arg1 : Vec Ideal S4096x4096 .i32)
abbrev scales (c : Dev nD) : Chan.Idx → EReal := (V m c main_arg2 : Vec Ideal S4096 .f32)
abbrev zeros (c : Dev nD) : Chan.Idx → BitVec 32 := (V m c main_arg3 : Vec Ideal S4096 .i32)
abbrev biases (c : Dev nD) : Chan.Idx → EReal := (V m c main_arg4 : Vec Ideal S4096 .f32)

/-- Term `k` of the sum that defines entry `(r, n)` of the layer. -/
def prod (c : Dev nD) (r n : Fin 4096) (k : Fin 4096) : EReal :=
  acts m c (ix2 r k) * weight (codes m c) (zeros m c) (scales m c) k n

/-- One point's partial product, from its blocks: the 512 terms of its block of the contracted axis. -/
theorem block_sum (c : Dev nD) (t : Fin cfg0.N) (p q : Fin 1024) (r n : Fin 4096)
    (hr : r.val = t.val / 32 * 1024 + p.val) (hn : n.val = t.val / 8 % 4 * 1024 + q.val) :
    (∑ kk : Fin 512, Blocks.actBlock m c t (ix2 p kk)
        * ((FloatOps.sitofp (F := Ideal) FTy.f32 (Blocks.codeBlock m c t (ix2 kk q))
            - FloatOps.sitofp (F := Ideal) FTy.f32 (Blocks.zeroBlock m c t (ix1 q)))
          * Blocks.scaleBlock m c t (ix1 q)))
      = ∑ kk : Fin 512, term (prod m c r n) (t.val % 8 * 512 + kk.val) := by
  refine Finset.sum_congr rfl fun kk _ => ?_
  have hk : t.val % 8 * 512 + kk.val < 4096 := by have := kk.isLt; omega
  rw [term_of_lt _ hk, Blocks.iblk0_apply m c t p kk r ⟨_, hk⟩ hr rfl, Blocks.iblk1_apply m c t kk q ⟨_, hk⟩ n rfl hn,
    Blocks.iblk2_apply m c t q n hn, Blocks.iblk3_apply m c t q n hn]
  rfl

/-- THE RUNNING TOTAL. After point `n`, entry `(p, q)` of the scratch tile holds the first `(n % 8 + 1)·512` terms
    of the sum that defines entry `(r, nn)` of the layer, `r` and `nn` being the point's tile offsets plus `p` and `q`. -/
theorem scratch_eq (c : Dev nD) : ∀ (n : ℕ) (h : n < cfg0.N) (p q : Fin 1024) (r nn : Fin 4096),
    r.val = n / 32 * 1024 + p.val → nn.val = n / 8 % 4 * 1024 + q.val →
    (outsAt0 m c n h).2 (ix2 p q) = head (prod m c r nn) ((n % 8 + 1) * 512) := by
  intro n
  induction n using Nat.strong_induction_on with
  | _ n ih =>
    intro h p q r nn hr hn
    have hN : n < 128 := lt_of_lt_of_eq h (show cfg0.N = 128 from N_0)
    have hblk := block_sum m c ⟨n, h⟩ p q r nn hr hn
    dsimp only at hblk
    rw [head_block]
    by_cases h0 : n % 8 = 0
    · have h1 : ¬n % 8 = 7 := by omega
      rw [outsAt0_A m c ⟨n, h⟩ h0 h1]
      dsimp only
      refine (congrFun (Pieces.sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩)
        ((hcond0_0 ⟨n, h⟩).mpr h0) (fun hh => h1 ((hcond0_1 ⟨n, h⟩).mp hh))) (ix2 p q)).trans ?_
      refine (Payload.pay2_apply (Blocks.zeroBlock m c ⟨n, h⟩) (Blocks.scaleBlock m c ⟨n, h⟩) (Blocks.codeBlock m c ⟨n, h⟩) (k0_pay1 (F := Ideal)) (Blocks.actBlock m c ⟨n, h⟩) p q).trans ?_
      rw [Payload.pay1_apply, hblk, h0, Nat.zero_mul, head_zero]
    · have hp : n - 1 < cfg0.N := lt_of_le_of_lt (Nat.sub_le _ _) h
      have hprev := ih (n - 1) (by omega) hp p q r nn (by omega) (by omega)
      rw [show (n - 1) % 8 + 1 = n % 8 by omega] at hprev
      by_cases h1 : n % 8 = 7
      · rw [outsAt0_C m c ⟨n, h⟩ h0 h1]
        dsimp only
        refine (congrFun (Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (outsAt0 m c (n - 1) hp).2
          (fun hh => h0 ((hcond0_0 ⟨n, h⟩).mp hh)) ((hcond0_1 ⟨n, h⟩).mpr h1)) (ix2 p q)).trans ?_
        refine (Payload.pay2_apply (Blocks.zeroBlock m c ⟨n, h⟩) (Blocks.scaleBlock m c ⟨n, h⟩) (Blocks.codeBlock m c ⟨n, h⟩) (outsAt0 m c (n - 1) hp).2 (Blocks.actBlock m c ⟨n, h⟩) p q).trans ?_
        rw [hprev, hblk]
      · rw [outsAt0_B m c ⟨n, h⟩ h0 h1]
        dsimp only
        refine (congrFun (Pieces.sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (outsAt0 m c (n - 1) hp).2
          (fun hh => h0 ((hcond0_0 ⟨n, h⟩).mp hh)) (fun hh => h1 ((hcond0_1 ⟨n, h⟩).mp hh))) (ix2 p q)).trans ?_
        refine (Payload.pay2_apply (Blocks.zeroBlock m c ⟨n, h⟩) (Blocks.scaleBlock m c ⟨n, h⟩) (Blocks.codeBlock m c ⟨n, h⟩) (outsAt0 m c (n - 1) hp).2 (Blocks.actBlock m c ⟨n, h⟩) p q).trans ?_
        rw [hprev, hblk]

/-- At the last block of the contracted axis the output tile receives the complete sum plus the channel's bias: the
    layer's entry `(r, nn)`. -/
theorem out_eq (c : Dev nD) (t : Fin cfg0.N) (h7 : t.val % 8 = 7) (p q : Fin 1024) (r nn : Fin 4096)
    (hr : r.val = t.val / 32 * 1024 + p.val) (hn : nn.val = t.val / 8 % 4 * 1024 + q.val) :
    (outsAt0 m c t.val t.isLt).1 (ix2 p q)
      = linear2 (acts m c) (codes m c) (zeros m c) (scales m c) (biases m c) (ix2 r nn) := by
  obtain ⟨n, h⟩ := t
  dsimp only at h7 hr hn ⊢
  have hN : n < 128 := lt_of_lt_of_eq h (show cfg0.N = 128 from N_0)
  have h0 : ¬n % 8 = 0 := by omega
  have hp : n - 1 < cfg0.N := lt_of_le_of_lt (Nat.sub_le _ _) h
  have hprev := scratch_eq m c (n - 1) hp p q r nn (by omega) (by omega)
  rw [show (n - 1) % 8 + 1 = n % 8 by omega] at hprev
  have hblk := block_sum m c ⟨n, h⟩ p q r nn hr hn
  dsimp only at hblk
  rw [outsAt0_C m c ⟨n, h⟩ h0 h7]
  dsimp only
  refine (congrFun (Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (outsAt0 m c (n - 1) hp).2
    (fun hh => h0 ((hcond0_0 ⟨n, h⟩).mp hh)) ((hcond0_1 ⟨n, h⟩).mpr h7)) (ix2 p q)).trans ?_
  refine (Payload.pay3_apply (k0_pay2 (Blocks.zeroBlock m c ⟨n, h⟩) (Blocks.scaleBlock m c ⟨n, h⟩) (Blocks.codeBlock m c ⟨n, h⟩) (outsAt0 m c (n - 1) hp).2 (Blocks.actBlock m c ⟨n, h⟩)) (Blocks.biasBlock m c ⟨n, h⟩) p q).trans ?_
  rw [Payload.pay2_apply (Blocks.zeroBlock m c ⟨n, h⟩) (Blocks.scaleBlock m c ⟨n, h⟩) (Blocks.codeBlock m c ⟨n, h⟩) (outsAt0 m c (n - 1) hp).2 (Blocks.actBlock m c ⟨n, h⟩) p q, hprev, hblk, ← head_block, h7,
    show (7 + 1) * 512 = 4096 from rfl, head_all, Blocks.iblk4_apply m c ⟨n, h⟩ q nn hn]
  rfl

end Cert.KernelIdeal.Accum

end
-- ==== Proof.Cover.lean ====
/-
  The result array is tiled by the blocks the kernel writes back. The output window's block at point `t` is the
  1024 × 1024 tile at block row `t / 32` and block column `t / 8 % 4`, and it is written back at the last block of the
  contracted axis, `t % 8 = 7`. Entry `(r, n)` of the `[4096, 4096]` result therefore lies in the block written back
  at the point `32·(r / 1024) + 8·(n / 1024) + 7`.
-/
import proofs.«176019_j33182917329331_1_alg».proof.Proof.Blocks

noncomputable section

namespace Cert.KernelIdeal.Cover

open Idealize.ShloMosaic Idealize.ShloMosaic.TcCoe Idealize.ShloMosaic.ValueIdx Idealize.SL.Sem Cert.KernelIdeal Cert.KernelIdeal.Gen

/-- An entry lies in the output window's block at point `t` when each coordinate lies in the block's range. -/
theorem mem_blk5 (t : Fin cfg0.N) (i : S4096x4096.Idx) :
    i ∈ ((cfg0.win 5).blk t).view.set
      ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry of the result lies in a block that is written back. -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  -- the point: block row `r / 1024`, block column `n / 1024`, last block of the contracted axis
  have ht : (i 0).val / 1024 * 32 + (i 1).val / 1024 * 8 + 7 < cfg0.N := by
    show _ < grid0.N
    rw [N_0]
    omega
  have h50 : win0_5.index ⟨_, ht⟩ 0 = ((i 0).val / 1024 * 32 + (i 1).val / 1024 * 8 + 7) / 32 :=
    (Blocks.idx_facts ⟨_, ht⟩).2.2.2.2.2.2.2.1
  have h51 : win0_5.index ⟨_, ht⟩ 1 = ((i 0).val / 1024 * 32 + (i 1).val / 1024 * 8 + 7) / 8 % 4 :=
    (Blocks.idx_facts ⟨_, ht⟩).2.2.2.2.2.2.2.2
  refine ⟨⟨_, ht⟩, (flush0_5 _).mpr ?_, ?_⟩
  · show ((i 0).val / 1024 * 32 + (i 1).val / 1024 * 8 + 7) % 8 = 7
    omega
  · rw [mem_blk5]
    intro a
    match a with
    | ⟨0, _⟩ =>
      show win0_5.index ⟨_, ht⟩ 0 * 1024 ≤ (i 0).val ∧ (i 0).val < win0_5.index ⟨_, ht⟩ 0 * 1024 + 1024
      rw [h50]
      omega
    | ⟨1, _⟩ =>
      show win0_5.index ⟨_, ht⟩ 1 * 1024 ≤ (i 1).val ∧ (i 1).val < win0_5.index ⟨_, ht⟩ 1 * 1024 + 1024
      rw [h51]
      omega

end Cert.KernelIdeal.Cover

end
-- ==== Proof.LibReshapeFlat.lean ====
/-
  Two reshapes of one array, and a matrix of rows regrouped into batches.
  A reshape keeps every entry's position in row-major order. So two reshapes of the same array hold the same entry
  wherever their indices have the same row-major position, whatever the two target shapes are; and an `[a·b, c]`
  matrix regrouped as `[a, b, c]` holds at `(i, j, k)` the matrix's entry `(i·b + j, k)`: row `i·b + j` is row
  `j` of batch `i`.
-/
import Idealize.ShloMosaic.Lib.Pipeline.Value
import Idealize.ShloMosaic.Lib.ValueIdx

namespace Cert.Lib.ReshapeFlat

open Idealize.ShloMosaic Idealize.ShloMosaic.ValueIdx

variable {α : Type}

/-- Two reshapes of one array agree at indices of equal row-major position. -/
theorem shapeCast_eq_shapeCast {s t₁ t₂ : Shape} (x : s.Idx → α) (h₁ : s.ShapeCasts t₁) (h₂ : s.ShapeCasts t₂)
    (j₁ : t₁.Idx) (j₂ : t₂.Idx) (e : (t₁.rowMajor j₁).val = (t₂.rowMajor j₂).val) :
    shapeCast t₁ x h₁ j₁ = shapeCast t₂ x h₂ j₂ :=
  shapeCast_apply x h₁ j₁ (Shape.reshapeEquiv h₂ j₂) ((Shape.rowMajor_reshapeEquiv h₂ j₂).trans e.symm)

/-- An `[n, c]` matrix with `n = a·b` rows regrouped as `[a, b, c]` reads, at `(i, j, k)`, row `i·b + j` at column `k`. -/
theorem shapeCast_rows_batches_apply {n a b c : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.Lib.ReshapeFlat
-- ==== Proof.HostEnds.lean ====
/-
  The host operations around the kernel call. Before it, the activations `[2, 2048, 4096]` are flattened to
  `[4096, 4096]` — row `2048·b + s` of the matrix is row `s` of batch `b` — and narrowed to a shorter float format,
  which over the extended reals changes nothing. After it, the `[4096, 4096]` result is regrouped as
  `[2, 2048, 4096]` the same way.
-/
import proofs.«176019_j33182917329331_1_alg».proof.Proof.Gen.KernelIdeal.Frame
import proofs.«176019_j33182917329331_1_alg».proof.Proof.LibReshapeFlat
import Idealize.ShloMosaic.Lib.Pipeline.Value
import Idealize.ShloMosaic.Lib.ValueIdx
import Idealize.ShloMosaic.Lib.StableHlo.Run

noncomputable section

namespace Cert.KernelIdeal.HostEnds

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- An `[a, b, c]` array flattened to `[n, c]` with `n = a·b` rows reads, at `(r, k)` with `r = i·b + j`, the
    entry `(i, j, k)`: both have row-major position `(i·b + j)·c + k`. -/
theorem shapeCast_batches_rows_apply {α : Type} {n a b c : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- The matrix the kernel call is handed for the activations: at `(r, k)` with `r = 2048·b + s` it holds the
    activation `(b, s, k)`. -/
theorem entry_x (c : Dev nD) (b : Fin 2) (s : Fin 2048) (k : Fin 4096) (r : Fin 4096) (hr : r.val = b.val * 2048 + s.val) :
    (V m c main_v1 : Vec Ideal S4096x4096 .bf16) (ix2 r k)
      = (m ((c : Thread nD τ).loc main_arg0) : Vec Ideal S2x2048x4096 .f32) (ix3 b s k) := by
  have e : (V m c main_v1 : Vec Ideal S4096x4096 .bf16)
      = (truncf (F := Ideal) .bf16 (shapeCast S4096x4096 (m ((c : Thread nD τ).loc main_arg0) : Vec Ideal S2x2048x4096 .f32)
          shapeCasts_S2x2048x4096_S4096x4096) bitsLt_bf16_f32 : Vec Ideal S4096x4096 .bf16) := by
    show StableHlo.after hostOps0 (fun b => m (c, b)) (Proc.devRef .tc main_v1) = _
    after_results
    rfl
  rw [e, truncf_apply]
  exact shapeCast_batches_rows_apply _ _ b s k r hr

/-- What the program returns: the kernel call's result array after the last grid point, regrouped. -/
theorem tail_eq (c : Dev nD) :
    Pipeline.afterTail₀ cfgs (dats m) 0 (V0 m) [hostOps1] c main_v3
      = shapeCast S2x2048x4096 ((dats m 0 c).arrAt 5 cfg0.N : Vec Ideal S4096x4096 .f32) shapeCasts_S4096x4096_S2x2048x4096 := by
  unfold Pipeline.afterTail₀
  show StableHlo.after hostOps1 _ (Proc.devRef .tc main_v3) = _
  after_results
  exact congrArg (fun z : Vec Ideal S4096x4096 .f32 => shapeCast S2x2048x4096 z shapeCasts_S4096x4096_S2x2048x4096)
    (Pipeline.withArrays_arr spec0 launch0.win.arr_inj c (V0 m c) (fun w => (dats m 0 c).arrAt w cfg0.N) 5)

end Cert.KernelIdeal.HostEnds

end
-- ==== Proof.Final.lean ====
/-
  The kernel's result. At the last block of the contracted axis the output tile holds the finished entries of the
  layer for the tile's rows and columns, and that is the point at which the tile is written back; the written-back
  tiles cover the `[4096, 4096]` result array, which therefore ends holding the layer of the flattened activations.
  Regrouped as `[2, 2048, 4096]`, with row `2048·b + s` of the flattened activations being row `s` of batch `b`, it is
  the layer of the activations as given.
-/
import proofs.«176019_j33182917329331_1_alg».proof.Proof.Accum
import proofs.«176019_j33182917329331_1_alg».proof.Proof.Cover
import proofs.«176019_j33182917329331_1_alg».proof.Proof.HostEnds
import proofs.«176019_j33182917329331_1_alg».proof.Proof.LibReshapeFlat

noncomputable section

namespace Cert.KernelIdeal.Final

open Idealize.ShloMosaic Idealize.ShloMosaic.TcCoe Idealize.ShloMosaic.ValueIdx Idealize.SL.Sem Cert.KernelIdeal Cert.KernelIdeal.Gen
open Idealize.ShloMosaic.Pipeline (Dat)
open Cert.Spec Cert.KernelIdeal.Accum

variable (m : (ℓ : Loc nD τ sig) → Buf (Elt Ideal) ℓ) (ρ : Dev nD → PrngReg)

/-- The layer of the flattened activations: what the `[4096, 4096]` result array ends holding. -/
abbrev flat (c : Dev nD) : Vec Ideal S4096x4096 .f32 :=
  linear2 (acts m c) (codes m c) (zeros m c) (scales m c) (biases m c)

/-- WHAT A WRITE-BACK WRITES: at a point that writes the output tile back, the tile is the corresponding block of
    the layer. -/
theorem flushed_eq (c : Dev nD) (t : Fin cfg0.N) (hf : (cfg0.win 5).flush t = true) :
    (dats m 0 c).flushed 5 t = ((cfg0.win 5).blk t).view.read (Elt Ideal) (flat m c) := by
  have h7 : t.val % 8 = 7 := (flush0_5 t).mp hf
  have hN : t.val < 128 := lt_of_lt_of_eq t.isLt (show cfg0.N = 128 from N_0)
  show (cfg0.win 5).cut (grid0.coords t) ((dats m 0 c).after 5 t) = _
  rw [after0_5]
  funext j
  obtain ⟨p, q, rfl⟩ : ∃ (p q : Fin 1024), j = ix2 p q := ⟨j 0, j 1, eq_ix2 j⟩
  rw [View.read_apply]
  show (outsAt0 m c t.val t.isLt).1 (ix2 p q) = flat m c (((cfg0.win 5).blk t).view.emb (ix2 p q))
  have hr : t.val / 32 * 1024 + p.val < 4096 := by have := p.isLt; omega
  have hn : t.val / 8 % 4 * 1024 + q.val < 4096 := by have := q.isLt; omega
  rw [out_eq m c t h7 p q ⟨_, hr⟩ ⟨_, hn⟩ rfl rfl]
  refine congrArg (flat m c) (funext fun a => Fin.ext ?_)
  obtain ⟨-, -, -, -, -, -, -, h50, h51⟩ := Blocks.idx_facts t
  match a with
  | ⟨0, _⟩ => show t.val / 32 * 1024 + p.val = win0_5.index t 0 * 1024 + 1 * p.val; rw [h50]; omega
  | ⟨1, _⟩ => show t.val / 8 % 4 * 1024 + q.val = win0_5.index t 1 * 1024 + 1 * q.val; rw [h51]; omega

/-- THE RESULT ARRAY after the last grid point is the layer of the flattened activations. -/
theorem final (c : Dev nD) : (dats m 0 c).arrAt 5 cfg0.N = flat m c :=
  (dats m 0 c).arrAt_eq_of_cover 5 (flat m c) (flushed_eq m c) Cover.covered

/-- The layer does not see the flattening: if row `r` of the flattened activations is row `s` of batch `b`, the
    flattened layer's entry `(r, n)` is the layer's entry `(b, s, n)`. -/
theorem linear2_eq_linear3 (x2 : Mat.Idx → EReal) (x3 : Acts.Idx → EReal) (q : Mat.Idx → BitVec 32) (zp : Chan.Idx → BitVec 32)
    (sc bias : Chan.Idx → EReal) (b : Fin 2) (s : Fin 2048) (n r : Fin 4096) (hx : ∀ k : Fin 4096, x2 (ix2 r k) = x3 (ix3 b s k)) :
    linear2 x2 q zp sc bias (ix2 r n) = linear3 x3 q zp sc bias (ix3 b s n) := by
  unfold linear2 linear3
  show (∑ k : Fin 4096, x2 (ix2 r k) * weight q zp sc k n) + bias (ix1 n)
    = (∑ k : Fin 4096, x3 (ix3 b s k) * weight q zp sc k n) + bias (ix1 n)
  simp only [hx]

/-- Regrouped, it is the layer of the activations as given, of the argument arrays as launched. -/
theorem result_eq (c : Dev nD) :
    Pipeline.afterTail₀ cfgs (dats m) 0 (V0 m) [hostOps1] c main_v3
      = linear3 (m ((c : Thread nD τ).loc main_arg0)) (m ((c : Thread nD τ).loc main_arg1)) (m ((c : Thread nD τ).loc main_arg3)) (m ((c : Thread nD τ).loc main_arg2)) (m ((c : Thread nD τ).loc main_arg4)) := by
  rw [HostEnds.tail_eq, final]
  funext i
  obtain ⟨b, s, n, rfl⟩ : ∃ (b : Fin 2) (s : Fin 2048) (n : Fin 4096), i = ix3 b s n := ⟨i 0, i 1, i 2, eq_ix3 i⟩
  have hr : b.val * 2048 + s.val < 4096 := by have := b.isLt; have := s.isLt; omega
  rw [Cert.Lib.ReshapeFlat.shapeCast_rows_batches_apply (flat m c) shapeCasts_S4096x4096_S2x2048x4096 b s n ⟨_, hr⟩ rfl]
  refine (linear2_eq_linear3 (acts m c) (m ((c : Thread nD τ).loc main_arg0)) (codes m c) (zeros m c) (scales m c) (biases m c) b s n ⟨_, hr⟩
    (fun k => HostEnds.entry_x m c b s k ⟨_, hr⟩ rfl)).trans ?_
  show linear3 _ (V m c main_arg1) (V m c main_arg3) (V m c main_arg2) (V m c main_arg4) _ = _
  rw [V_main_arg1, V_main_arg2, V_main_arg3, V_main_arg4]

/-- THE RUN, READ: every weakly fair execution of the idealized kernel program terminates with its result at the
    layer of the argument arrays, and the argument arrays unchanged. -/
theorem run : θ_run defs (onTc (τ := τ) (main (F := Ideal))) ⟨m, fun _ => 0, ρ⟩ fun r => ∀ c : Dev nD,
      r.2.mem ((c.tc : Thread nD τ).loc main_v3)
          = linear3 (m ((c.tc : Thread nD τ).loc main_arg0)) (m ((c.tc : Thread nD τ).loc main_arg1))
              (m ((c.tc : Thread nD τ).loc main_arg3)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Final

end
-- ==== Proof.lean ====
/-
  A linear layer with weights dequantised on the fly, `out = x · W + bias` with `W[k, n] = (q[k, n] − zp[n]) · scale[n]`,
  computed by a tiled kernel and by a plain reference, agree over the extended reals.
  The kernel flattens the activations `[2, 2048, 4096]` to `[4096, 4096]`, walks a 4 × 4 × 8 grid of 1024 × 1024
  result tiles and 512-wide blocks of the contracted axis, keeps each tile's running total in a scratch tile that is
  reset at the first block and completed at the eighth, adds the bias, writes the tile back, and regroups the result;
  the reference dequantises the whole matrix and contracts all 4096 terms at once. Both are the same sum of the same
  products, taken 512 terms at a time or all together: sums of extended reals may be regrouped freely, and narrowing
  a float to a shorter format is the identity there, so no finiteness of the inputs is used.
  Proof/Spec.lean states the layer and the regrouping law; Proof/RefSpec.lean reads the reference as the layer;
  Proof/Pieces.lean, Payload.lean, Blocks.lean read one grid point of the kernel; Proof/Accum.lean is the induction over
  the grid; Proof/Cover.lean, HostEnds.lean, Final.lean assemble the result array and the kernel's run; Proof/Claims.lean
  states the five claims, assembled here behind the witnesses of the programs' stated side conditions.
-/
import proofs.«176019_j33182917329331_1_alg».proof.Defs
import proofs.«176019_j33182917329331_1_alg».proof.Proof.Gen.Kernel
import proofs.«176019_j33182917329331_1_alg».proof.Proof.Gen.Kernel.Skeleton
import proofs.«176019_j33182917329331_1_alg».proof.Proof.Gen.Kernel.Launch
import proofs.«176019_j33182917329331_1_alg».proof.Proof.Gen.Kernel.Points
import proofs.«176019_j33182917329331_1_alg».proof.Proof.Gen.Kernel.Frame
import proofs.«176019_j33182917329331_1_alg».proof.Proof.Gen.KernelIdeal
import proofs.«176019_j33182917329331_1_alg».proof.Proof.Gen.KernelIdeal.Skeleton
import proofs.«176019_j33182917329331_1_alg».proof.Proof.Gen.KernelIdeal.Launch
import proofs.«176019_j33182917329331_1_alg».proof.Proof.Gen.KernelIdeal.Points
import proofs.«176019_j33182917329331_1_alg».proof.Proof.Gen.KernelIdeal.Frame
import proofs.«176019_j33182917329331_1_alg».proof.Proof.Gen.ReferenceIdeal
import proofs.«176019_j33182917329331_1_alg».proof.Proof.Gen.ReferenceIdeal.Run
import proofs.«176019_j33182917329331_1_alg».proof.Proof.Gen.ReferenceIdeal.Read
import proofs.«176019_j33182917329331_1_alg».proof.Proof.Gen.Pre_finite_inputs
import proofs.«176019_j33182917329331_1_alg».proof.Proof.Claims
import proofs.«176019_j33182917329331_1_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic fun m ρ => Cert.KernelIdeal.Final.run m ρ⟩

end Cert.Proof

end
